-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x256x128 : Shape := ⟨4, ![64, 32, 256, 128]⟩
abbrev S_ : Shape := ⟨0, ![]⟩

class Facts : Prop where
  bcast_S_S64x32x256x128 : S_.BroadcastsInDim S64x32x256x128 (![] : Fin 0 → Fin S64x32x256x128.rank)
  reducesTo_S64x32x256x128_S_d0_1_2_3 : S64x32x256x128.ReducesTo [0, 1, 2, 3] S_
  h_S_ : 0 < S_.numel

variable [Facts]

def fn {F : FTy → Type} [FloatOps F] (main_arg0 : FVec F S64x32x256x128 .f32) : IVec S_ 1 :=
  let main_v0 : FVec F S64x32x256x128 .f32 := Host.absf main_arg0
  let main_cst : FVec F S_ .f32 := constant S_ .f32 0x7F800000#32
  let main_v1 : FVec F S64x32x256x128 .f32 := broadcastInDim S64x32x256x128 ![] bcast_S_S64x32x256x128 main_cst
  let main_v2 : IVec S64x32x256x128 1 := cmpf .olt main_v0 main_v1
  let main_c : IVec S_ 1 := constantI S_ 1 1#1
  let main_v3 : IVec S_ 1 := (fun x v => Host.reduce IntOp.andi x v reducesTo_S64x32x256x128_S_d0_1_2_3 h_S_) main_v2 main_c
  main_v3
-- ==== Kernel.lean ====
abbrev S64x32x256x128 : Shape := ⟨4, ![64, 32, 256, 128]⟩
abbrev S64x256x32x128 : Shape := ⟨4, ![64, 256, 32, 128]⟩
abbrev S64x32x128 : Shape := ⟨3, ![64, 32, 128]⟩
abbrev S8x128x32x128 : Shape := ⟨4, ![8, 128, 32, 128]⟩
abbrev S8x32x128 : Shape := ⟨3, ![8, 32, 128]⟩
abbrev S8x32 : Shape := ⟨2, ![8, 32]⟩
abbrev S8x32x1 : Shape := ⟨3, ![8, 32, 1]⟩
abbrev S64x32x128x1 : Shape := ⟨4, ![64, 32, 128, 1]⟩

abbrev nBuf : Space → Nat
  | .hbm => 4
  | .vmem => 5
  | .smem => 0
  | _ => 0

abbrev bufTy : (tb : Table) → Fin (tcTables nBuf tb) → BufTy
  | .hbm, ⟨0, _⟩ => ⟨S64x32x256x128, .f32⟩
  | .hbm, ⟨1, _⟩ => ⟨S64x256x32x128, .f32⟩
  | .hbm, ⟨2, _⟩ => ⟨S64x32x128, .f32⟩
  | .hbm, ⟨3, _⟩ => ⟨S64x32x128x1, .f32⟩
  | .local _ .vmem, ⟨0, _⟩ => ⟨S8x128x32x128, .f32⟩
  | .local _ .vmem, ⟨1, _⟩ => ⟨S8x128x32x128, .f32⟩
  | .local _ .vmem, ⟨2, _⟩ => ⟨S8x32x128, .f32⟩
  | .local _ .vmem, ⟨3, _⟩ => ⟨S8x32x128, .f32⟩
  | .local _ .vmem, ⟨4, _⟩ => ⟨S8x32x128, .f32⟩
  | _, _ => ⟨S64x32x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_10 : BitVec 32 := 0#32
  let v13 : BitVec 1 := Scalar.cmpi .ne v12 c0_i32_10
  v13

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S64x32x256x128_S64x256x32x128 : S64x32x256x128.ShapeCasts S64x256x32x128
  inb_S8x32x128_S8x32x128_0_0_0 : ∀ a, (![0, 0, 0] : Fin 3 → Nat) a + S8x32x128.size a ≤ S8x32x128.size a
  h_S8x32x128 : 0 < S8x32x128.numel
  shapeCasts_S8x32x128_S8x32x128 : S8x32x128.ShapeCasts S8x32x128
  inb_S8x128x32x128_S8x128x32x128_0_0_0_0 : ∀ a, (![0, 0, 0, 0] : Fin 4 → Nat) a + S8x128x32x128.size a ≤ S8x128x32x128.size a
  h_S8x128x32x128 : 0 < S8x128x32x128.numel
  shapeCasts_S8x128x32x128_S8x128x32x128 : S8x128x32x128.ShapeCasts S8x128x32x128
  reduces_S8x128x32x128_S8x32x128 : S8x128x32x128.Reduces [1] S8x32x128
  reduces_S8x32x128_S8x32 : S8x32x128.Reduces [2] S8x32
  shapeCasts_S8x32_S8x32x1 : S8x32.ShapeCasts S8x32x1
  broadcasts_S8x32x1_S8x32x128 : S8x32x1.Broadcasts S8x32x128
  bcast_S64x32x128_S64x32x128x1_0_1_2 : S64x32x128.BroadcastsInDim S64x32x128x1 (![0, 1, 2] : Fin 3 → Fin S64x32x128x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x32x128.size a ≤ S64x256x32x128.size a
  hwx0_0 : ∀ i : grid0.Coords, EltTy.bits .f32 = 32 ∨ (Rect.block (s := S64x256x32x128) S8x128x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x128.size a ≤ S64x32x128.size a
  hwx0_1 : ∀ i : grid0.Coords, EltTy.bits .f32 = 32 ∨ (Rect.block (s := S64x32x128) S8x32x128.size (cc0_transform_1 i) (hinb0_1 i)).WholeWords (EltTy.packing .f32)

variable [Facts₀]

abbrev win0_0 : Pipeline.Window sig grid0 :=
  Pipeline.Window.ofSpec (Memref.whole main_v0) S8x128x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x32x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S64x32x256x128 : Shape := ⟨4, ![64, 32, 256, 128]⟩
abbrev S64x256x32x128x1 : Shape := ⟨5, ![64, 256, 32, 128, 1]⟩
abbrev S_ : Shape := ⟨0, ![]⟩
abbrev S1x256x32x1 : Shape := ⟨4, ![1, 256, 32, 1]⟩
abbrev S1x32x1 : Shape := ⟨3, ![1, 32, 1]⟩
abbrev S1x1x32x1 : Shape := ⟨4, ![1, 1, 32, 1]⟩
abbrev S1x256x32x1x1 : Shape := ⟨5, ![1, 256, 32, 1, 1]⟩
abbrev S64x32x128x1 : Shape := ⟨4, ![64, 32, 128, 1]⟩
abbrev S64x1x32x128x1 : Shape := ⟨5, ![64, 1, 32, 128, 1]⟩
abbrev S64x1x32x1 : Shape := ⟨4, ![64, 1, 32, 1]⟩
abbrev S64x1x32x1x1 : Shape := ⟨5, ![64, 1, 32, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S64x32x256x128, .f32⟩
  | .hbm, ⟨1, _⟩ => ⟨S64x256x32x128x1, .f32⟩
  | .hbm, ⟨2, _⟩ => ⟨S_, .f32⟩
  | .hbm, ⟨3, _⟩ => ⟨S1x256x32x1, .f32⟩
  | .hbm, ⟨4, _⟩ => ⟨S_, .f32⟩
  | .hbm, ⟨5, _⟩ => ⟨S1x32x1, .f32⟩
  | .hbm, ⟨6, _⟩ => ⟨S_, .f32⟩
  | .hbm, ⟨7, _⟩ => ⟨S1x32x1, .f32⟩
  | .hbm, ⟨8, _⟩ => ⟨S1x32x1, .f32⟩
  | .hbm, ⟨9, _⟩ => ⟨S1x1x32x1, .f32⟩
  | .hbm, ⟨10, _⟩ => ⟨S1x256x32x1, .f32⟩
  | .hbm, ⟨11, _⟩ => ⟨S1x256x32x1, .f32⟩
  | .hbm, ⟨12, _⟩ => ⟨S1x256x32x1, .f32⟩
  | .hbm, ⟨13, _⟩ => ⟨S_, .f32⟩
  | .hbm, ⟨14, _⟩ => ⟨S1x32x1, .f32⟩
  | .hbm, ⟨15, _⟩ => ⟨S1x1x32x1, .f32⟩
  | .hbm, ⟨16, _⟩ => ⟨S1x256x32x1, .f32⟩
  | .hbm, ⟨17, _⟩ => ⟨S1x256x32x1, .f32⟩
  | .hbm, ⟨18, _⟩ => ⟨S1x256x32x1x1, .f32⟩
  | .hbm, ⟨19, _⟩ => ⟨S64x256x32x128x1, .f32⟩
  | .hbm, ⟨20, _⟩ => ⟨S64x256x32x128x1, .f32⟩
  | .hbm, ⟨21, _⟩ => ⟨S_, .f32⟩
  | .hbm, ⟨22, _⟩ => ⟨S64x32x128x1, .f32⟩
  | .hbm, ⟨23, _⟩ => ⟨S64x1x32x128x1, .f32⟩
  | .hbm, ⟨24, _⟩ => ⟨S64x1x32x128x1, .f32⟩
  | .hbm, ⟨25, _⟩ => ⟨S_, .f32⟩
  | .hbm, ⟨26, _⟩ => ⟨S64x1x32x1, .f32⟩
  | .hbm, ⟨27, _⟩ => ⟨S64x1x32x1x1, .f32⟩
  | .hbm, ⟨28, _⟩ => ⟨S64x1x32x1x1, .f32⟩
  | .hbm, ⟨29, _⟩ => ⟨S_, .f32⟩
  | .hbm, ⟨30, _⟩ => ⟨S64x1x32x1x1, .f32⟩
  | .hbm, ⟨31, _⟩ => ⟨S64x1x32x1x1, .f32⟩
  | .hbm, ⟨32, _⟩ => ⟨S64x1x32x1x1, .f32⟩
  | .hbm, ⟨33, _⟩ => ⟨S_, .f32⟩
  | .hbm, ⟨34, _⟩ => ⟨S64x1x32x1x1, .f32⟩
  | .hbm, ⟨35, _⟩ => ⟨S64x1x32x1x1, .f32⟩
  | .hbm, ⟨36, _⟩ => ⟨S64x1x32x128x1, .f32⟩
  | .hbm, ⟨37, _⟩ => ⟨S64x1x32x128x1, .f32⟩
  | .hbm, ⟨38, _⟩ => ⟨S64x1x32x128x1, .f32⟩
  | .hbm, ⟨39, _⟩ => ⟨S64x1x32x128x1, .f32⟩
  | .hbm, ⟨40, _⟩ => ⟨S64x32x128x1, .f32⟩
  | _, _ => ⟨S64x32x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  shapeCasts_S64x32x256x128_S64x256x32x128x1 : S64x32x256x128.ShapeCasts S64x256x32x128x1
  bcast_S_S1x256x32x1 : S_.BroadcastsInDim S1x256x32x1 (![] : Fin 0 → Fin S1x256x32x1.rank)
  reducesTo_S1x256x32x1_S1x32x1_d1 : S1x256x32x1.ReducesTo [1] S1x32x1
  h_S_ : 0 < S_.numel
  bcast_S_S1x32x1 : S_.BroadcastsInDim S1x32x1 (![] : Fin 0 → Fin S1x32x1.rank)
  bcast_S1x32x1_S1x1x32x1_0_2_3 : S1x32x1.BroadcastsInDim S1x1x32x1 (![0, 2, 3] : Fin 3 → Fin S1x1x32x1.rank)
  bcast_S1x1x32x1_S1x256x32x1_0_1_2_3 : S1x1x32x1.BroadcastsInDim S1x256x32x1 (![0, 1, 2, 3] : Fin 4 → Fin S1x256x32x1.rank)
  bcast_S1x256x32x1_S1x256x32x1x1_0_1_2_3 : S1x256x32x1.BroadcastsInDim S1x256x32x1x1 (![0, 1, 2, 3] : Fin 4 → Fin S1x256x32x1x1.rank)
  bcast_S1x256x32x1x1_S64x256x32x128x1_0_1_2_3_4 : S1x256x32x1x1.BroadcastsInDim S64x256x32x128x1 (![0, 1, 2, 3, 4] : Fin 5 → Fin S64x256x32x128x1.rank)
  reducesTo_S64x256x32x128x1_S64x32x128x1_d1 : S64x256x32x128x1.ReducesTo [1] S64x32x128x1
  bcast_S64x32x128x1_S64x1x32x128x1_0_2_3_4 : S64x32x128x1.BroadcastsInDim S64x1x32x128x1 (![0, 2, 3, 4] : Fin 4 → Fin S64x1x32x128x1.rank)
  reducesTo_S64x1x32x128x1_S64x1x32x1_d3 : S64x1x32x128x1.ReducesTo [3] S64x1x32x1
  bcast_S64x1x32x1_S64x1x32x1x1_0_1_2_4 : S64x1x32x1.BroadcastsInDim S64x1x32x1x1 (![0, 1, 2, 4] : Fin 4 → Fin S64x1x32x1x1.rank)
  bcast_S_S64x1x32x1x1 : S_.BroadcastsInDim S64x1x32x1x1 (![] : Fin 0 → Fin S64x1x32x1x1.rank)
  bcast_S64x1x32x1x1_S64x1x32x128x1_0_1_2_3_4 : S64x1x32x1x1.BroadcastsInDim S64x1x32x128x1 (![0, 1, 2, 3, 4] : Fin 5 → Fin S64x1x32x128x1.rank)
  shapeCasts_S64x1x32x128x1_S64x32x128x1 : S64x1x32x128x1.ShapeCasts S64x32x128x1

variable [Facts₀]

class Facts : Prop extends Facts₀ where

variable [Facts]
-- ==== Proof.KPieces.lean ====
/-
  What the kernel body leaves behind at a grid point, as values of what it loaded.

  The body keeps a running sum in a scratch block of shape [8, 32, 128].  At a point whose channel-block index is 0
  it first stores the zero block there, reads it back, adds the sum over the 128 channels of the input block and
  stores the result; at a point whose channel-block index is 1 it adds the input block's channel sum to what the
  point before left, stores that, reads it back and writes the squash of its scaled value to the output block.
  Every store covers the whole block, so what a buffer ends with is the LAST store's payload, and a load that
  follows a store reads that store's payload.  The three statements below say exactly this, at any float instance.
-/
import proofs.«177198_j14199161881177_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a first channel block the scratch ends at `0 + (channel sum of the input block)`: the zero block stored,
    read back, and the sum added to it. -/
theorem scratch_first (c : Dev nD) (i : grid0.Coords) (a2 : Memref sig .tc .vmem S8x128x32x128 .f32) (h2 : a2.IsWhole)
    (a3 : Memref sig .tc .vmem S8x32x128 .f32) (h3 : a3.IsWhole) (a4 : Memref sig .tc .vmem S8x32x128 .f32) (h4 : a4.IsWhole)
    (hc0 : cond0_0 i) (hc1 : ¬cond0_1 i) (x0 : Vec F S8x128x32x128 .f32) :
    sout0_A_0 c i a2 h2 a3 h3 a4 h4 hc0 hc1 x0 = k0_pay2 (k0_pay1 (F := F)) x0 := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S8x32x128) hz3, View.readCov_unit_zero (S := S8x32x128) _ hz3]
  simp only [View.readAt_eq_ld, h2.read_unread, View.ld_unit_zero (S := S8x128x32x128) hz4]

/-- At a last channel block the scratch ends at `(what the point before left) + (channel sum of the input block)`. -/
theorem scratch_last (c : Dev nD) (i : grid0.Coords) (a2 : Memref sig .tc .vmem S8x128x32x128 .f32) (h2 : a2.IsWhole)
    (a3 : Memref sig .tc .vmem S8x32x128 .f32) (h3 : a3.IsWhole) (a4 : Memref sig .tc .vmem S8x32x128 .f32) (h4 : a4.IsWhole)
    (hc0 : ¬cond0_0 i) (hc1 : cond0_1 i) (x0 : Vec F S8x128x32x128 .f32) (xs0 : Vec F S8x32x128 .f32) :
    sout0_B_0 c i a2 h2 a3 h3 a4 h4 hc0 hc1 x0 xs0 = k0_pay2 xs0 x0 := by
  unfold sout0_B_0
  rw [View.read_writes_eq_canon _ _ _ (scover0_B_0 c i a2 h2 a3 h3 a4 h4 hc0 hc1 x0 xs0)]
  unfold kernelRun0_B
  dsimp only
  sl_unfold_words
  rw [View.canon_unit_zero (S := S8x32x128) hz3]
  simp only [View.readAt_eq_ld, h2.read_unread, h4.read_unread, View.ld_unit_zero (S := S8x128x32x128) hz4,
    View.ld_unit_zero (S := S8x32x128) hz3]

/-- At a last channel block the output block ends at the squash payload of that same running sum. -/
theorem out_last (c : Dev nD) (i : grid0.Coords) (a2 : Memref sig .tc .vmem S8x128x32x128 .f32) (h2 : a2.IsWhole)
    (a3 : Memref sig .tc .vmem S8x32x128 .f32) (h3 : a3.IsWhole) (a4 : Memref sig .tc .vmem S8x32x128 .f32) (h4 : a4.IsWhole)
    (hc0 : ¬cond0_0 i) (hc1 : cond0_1 i) (x0 : Vec F S8x128x32x128 .f32) (xs0 : Vec F S8x32x128 .f32) :
    out0_B_1 c i a2 h2 a3 h3 a4 h4 hc0 hc1 x0 xs0 = k0_pay3 (k0_pay2 xs0 x0) := by
  unfold out0_B_1
  rw [View.read_writes_eq_canon _ _ _ (cover0_B_1 c i a2 h2 a3 h3 a4 h4 hc0 hc1 x0 xs0)]
  unfold kernelRun0_B
  dsimp only
  sl_unfold_words
  rw [View.canon_unit_zero (S := S8x32x128) hz3, View.readCov_unit_zero (S := S8x32x128) _ hz3]
  simp only [View.readAt_eq_ld, h2.read_unread, h4.read_unread, View.ld_unit_zero (S := S8x128x32x128) hz4,
    View.ld_unit_zero (S := S8x32x128) hz3]

end Cert.KernelIdeal.Pieces

end
-- ==== Proof.Squash.lean ====
/-
  The mathematics both programs share, on the extended reals.

  A capsule is a vector of 128 lanes. Its squash is
      v = |s|² / (1 + |s|²) · s / (|s| + ε),      |s|² = Σ_l s_l².
  The input capsule is the mean over 256 channels, s = Σ_k (1/256) · x_k.  One program multiplies every channel
  by 1/256 before summing; the other sums the channels, in two halves of 128, and multiplies the total by the
  word 2⁻⁸.  The two agree because a nonnegative REAL factor distributes over a sum of extended reals, whatever
  infinities the terms hold (EReal.left_distrib_of_nonneg_of_ne_top): no finiteness of the inputs is used.
-/
import Idealize.ShloMosaic.PureOps.Ideal
import Idealize.ShloMosaic.PureOps.Ideal.Laws
import Idealize.ShloMosaic.Lib.ValueIdx

noncomputable section

namespace Cert.Squash

open Idealize.ShloMosaic

/-! ## The float words the programs spell, as the extended reals they denote -/

/-- `+0.0` denotes `0`. -/
theorem ofBits_zero : Ideal.ofBits .f32 0x00000000#32 = 0 := by
  simp [Ideal.ofBits, Ideal.ieee]

/-- `0x3B800000` is `2⁻⁸ = 1/256`. -/
theorem ofBits_inv256 : Ideal.ofBits .f32 0x3B800000#32 = ((1 / 256 : ℝ) : EReal) := by
  simp [Ideal.ofBits, Ideal.ieee, -EReal.coe_mul]; norm_num

/-- `0xFF800000` is `-∞`. -/
theorem ofBits_neg_inf : Ideal.ofBits .f32 0xFF800000#32 = ⊥ := by
  simp [Ideal.ofBits, Ideal.ieee]

/-- The mean's weight, `1/256`, as an extended real. -/
abbrev w256 : EReal := ((1 / 256 : ℝ) : EReal)

theorem w256_nonneg : (0 : EReal) ≤ w256 := by
  show (0 : EReal) ≤ ((1 / 256 : ℝ) : EReal)
  exact_mod_cast (by norm_num : (0 : ℝ) ≤ 1 / 256)

theorem w256_ne_top : w256 ≠ ⊤ := EReal.coe_ne_top _

/-! ## A real nonnegative factor across a finite sum -/

/-- `c · Σ f = Σ c · f` for a nonnegative real `c`, at every extended-real `f`. -/
theorem mul_sum_of_real {ι : Type} (s : Finset ι) (f : ι → EReal) :
    w256 * ∑ k ∈ s, f k = ∑ k ∈ s, w256 * f k := by
  classical
  induction s using Finset.induction_on with
  | empty => simp
  | insert a s ha ih =>
    rw [Finset.sum_insert ha, Finset.sum_insert ha, EReal.left_distrib_of_nonneg_of_ne_top w256_nonneg w256_ne_top, ih]

/-- The 256 channels as the first 128 and the last 128. -/
theorem sum_two_halves (g : Fin 256 → EReal) :
    ∑ k : Fin 256, g k = (∑ k : Fin 128, g ⟨k.val, by omega⟩) + ∑ k : Fin 128, g ⟨128 + k.val, by omega⟩ :=
  Fin.sum_univ_add (a := 128) (b := 128) (f := (g : Fin (128 + 128) → EReal))

/-- THE LAW joining the two programs: the channels summed in two halves from `0` and scaled by the word `2⁻⁸`
    is the sum of the channels each scaled by `1/256`. -/
theorem mean_eq (g : Fin 256 → EReal) :
    ((Ideal.ofBits .f32 0x00000000#32 + ∑ k : Fin 128, g ⟨k.val, by omega⟩) + ∑ k : Fin 128, g ⟨128 + k.val, by omega⟩)
        * Ideal.ofBits .f32 0x3B800000#32
      = ∑ k : Fin 256, w256 * g k := by
  rw [ofBits_zero, zero_add, ofBits_inv256, ← sum_two_halves, mul_comm, mul_sum_of_real]

/-! ## The squash -/

/-- The squash of a capsule `s`, read at lane `u`: `|s|² / (1 + |s|²) · (s_u / (|s| + ε))`, the words `1.0` and
    `ε = 0x3727C5AC` kept as the programs spell them (the same word on both sides is never evaluated). -/
def squash (s : Fin 128 → EReal) (u : Fin 128) : EReal :=
  Ideal.div (∑ l : Fin 128, s l * s l) (Ideal.ofBits .f32 0x3F800000#32 + ∑ l : Fin 128, s l * s l)
    * Ideal.div (s u) (Ideal.sqrt (∑ l : Fin 128, s l * s l) + Ideal.ofBits .f32 0x3727C5AC#32)

/-! ## The whole result as one function of the input array

Both programs first re-read the input array, of shape [64, 32, 256, 128], as [64, 256, 32, 128] WITHOUT moving
anything: element (b, k, n, l) of the second reading is the element of the first at the same row-major position,
`((b·256 + k)·32 + n)·128 + l`. -/

open Idealize.ShloMosaic.ValueIdx

/-- The row-major position of (b, k, n, l) in [64, 256, 32, 128]. -/
abbrev pos (b : Fin 64) (k : Fin 256) (n : Fin 32) (l : Fin 128) : Nat := ((b.val * 256 + k.val) * 32 + n.val) * 128 + l.val

theorem pos_lt (b : Fin 64) (k : Fin 256) (n : Fin 32) (l : Fin 128) : pos b k n l < 64 * 32 * 256 * 128 := by
  have := b.isLt; have := k.isLt; have := n.isLt; have := l.isLt
  show ((b.val * 256 + k.val) * 32 + n.val) * 128 + l.val < 64 * 32 * 256 * 128
  omega

/-- Where (b, k, n, l) of the [64, 256, 32, 128] reading sits in the [64, 32, 256, 128] array. -/
def chan (b : Fin 64) (k : Fin 256) (n : Fin 32) (l : Fin 128) : (⟨4, ![64, 32, 256, 128]⟩ : Shape).Idx :=
  ix4 (⟨pos b k n l / 1048576, by have := pos_lt b k n l; omega⟩ : Fin 64)
    (⟨pos b k n l / 32768 % 32, Nat.mod_lt _ (by decide)⟩ : Fin 32)
    (⟨pos b k n l / 128 % 256, Nat.mod_lt _ (by decide)⟩ : Fin 256)
    (⟨pos b k n l % 128, Nat.mod_lt _ (by decide)⟩ : Fin 128)

/-- Its row-major position in the array is `pos`. -/
theorem chan_rowMajor (b : Fin 64) (k : Fin 256) (n : Fin 32) (l : Fin 128) :
    (((⟨4, ![64, 32, 256, 128]⟩ : Shape).rowMajor (chan b k n l)).val : Nat) = pos b k n l := by
  rewrite [Shape.rowMajor_val_four]
  have := pos_lt b k n l
  show ((pos b k n l / 1048576 * 32 + pos b k n l / 32768 % 32) * 256 + pos b k n l / 128 % 256) * 128 + pos b k n l % 128
    = pos b k n l
  omega

/-- THE RESULT both programs compute, of shape [64, 32, 128, 1]: at (b, n, u, 0) the squash, at lane `u`, of the
    capsule whose lane `l` is the mean over the 256 channels `k` of the input at (b, k, n, l). -/
def result (x : (⟨4, ![64, 32, 256, 128]⟩ : Shape).Idx → EReal) : (⟨4, ![64, 32, 128, 1]⟩ : Shape).Idx → EReal :=
  fun i => squash (fun l => ∑ k : Fin 256, w256 * x (chan (i 0) k (i 1) l)) (i 2)

theorem result_apply (x : (⟨4, ![64, 32, 256, 128]⟩ : Shape).Idx → EReal) (b : Fin 64) (n : Fin 32) (u : Fin 128) (o : Fin 1) :
    result x (ix4 b n u o) = squash (fun l => ∑ k : Fin 256, w256 * x (chan b k n l)) u := rfl

end Cert.Squash

end
-- ==== Proof.KValue.lean ====
/-
  The kernel body's arithmetic at the exact instance, read one element at a time.

  Indices are (p, n, u): p one of the 8 batch rows of a block, n one of the 32 capsules, u one of the 128 lanes;
  an input block has a fourth coordinate k, one of its 128 channels, in second place.
    * the accumulate step leaves  acc(p, n, u) + Σ_k x(p, k, n, u);
    * the finalize step takes s(p, n, l) = acc(p, n, l) · 2⁻⁸ and leaves the squash of the capsule l ↦ s(p, n, l) at lane u:
      its squared norm is a sum over the lanes, kept as a column [8, 32, 1] and spread back over the lanes.
  So after a first and a last channel block the output block holds the squash of
      l ↦ ((0 + Σ_k x₀(p, k, n, l)) + Σ_k x₁(p, k, n, l)) · 2⁻⁸.
-/
import proofs.«177198_j14199161881177_1_alg».proof.Proof.Gen.KernelIdeal.Skeleton
import proofs.«177198_j14199161881177_1_alg».proof.Proof.Squash
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.Tactic

open Idealize.ShloMosaic.ValueIdx

namespace Cert.KernelIdeal.KValue

open Cert.KernelIdeal Cert.KernelIdeal.Gen

/-- The sum over the 128 channels of a block, read at (p, n, u). -/
theorem chanSum_apply (v : FVec Ideal S8x128x32x128 .f32) (h : S8x128x32x128.Reduces [1] S8x32x128)
    (hacc : (0x00000000#32 : BitVec 32) = 0x00000000#32) (p : Fin 8) (n : Fin 32) (u : Fin 128) :
    multiReduction .add [1] S8x32x128 v 0x00000000#32 h (.inl rfl) hacc (ix3 p n u) = ∑ k : Fin 128, v (ix4 p k n u) := by
  refine (Ideal.multiReduction_add_single v 0x00000000#32 h (.inl rfl) hacc (ix3 p n u)).trans ?_
  exact Finset.sum_congr rfl fun k _ => congrArg v (funext fun a => Fin.ext (by
    match a with | ⟨0, _⟩ => rfl | ⟨1, _⟩ => rfl | ⟨2, _⟩ => rfl | ⟨3, _⟩ => rfl))

/-- The sum over the 128 lanes of a block, read at (p, n). -/
theorem laneSum_apply (w : FVec Ideal S8x32x128 .f32) (h : S8x32x128.Reduces [2] S8x32)
    (hacc : (0x00000000#32 : BitVec 32) = 0x00000000#32) (p : Fin 8) (n : Fin 32) :
    multiReduction .add [2] S8x32 w 0x00000000#32 h (.inl rfl) hacc (ix2 p n) = ∑ l : Fin 128, w (ix3 p n l) := by
  refine (Ideal.multiReduction_add_single w 0x00000000#32 h (.inl rfl) hacc (ix2 p n)).trans ?_
  exact Finset.sum_congr rfl fun k _ => congrArg w (funext fun a => Fin.ext (by
    match a with | ⟨0, _⟩ => rfl | ⟨1, _⟩ => rfl | ⟨2, _⟩ => rfl))

/-- [8, 32] viewed as [8, 32, 1]: (p, n, 0) reads (p, n) — the same row-major position. -/
theorem keepdims_apply {α : Type} (z : S8x32.Idx → α) (h : S8x32.ShapeCasts S8x32x1) (p : Fin 8) (n : Fin 32) (o : Fin 1) :
    shapeCast S8x32x1 z h (ix3 p n o) = z (ix2 p n) :=
  shapeCast_apply z h (ix3 p n o) (ix2 p n) (by
    rewrite [Shape.rowMajor_val_two, Shape.rowMajor_val_three]
    have ho : o.val = 0 := by omega
    show p.val * 32 + n.val = (p.val * 32 + n.val) * 1 + o.val
    omega)

/-- A column [8, 32, 1] spread over the 128 lanes: (p, n, u) reads (p, n, 0). -/
theorem column_apply {α : Type} (y : S8x32x1.Idx → α) (h : S8x32x1.Broadcasts S8x32x128) (p : Fin 8) (n : Fin 32) (u : Fin 128) :
    broadcastTo S8x32x128 y h (ix3 p n u) = y (ix3 p n (0 : Fin 1)) :=
  broadcastTo_apply y h (ix3 p n u) (ix3 p n (0 : Fin 1)) (fun a => match a with
    | ⟨0, _⟩ => by show p.val = if (8 : Nat) = 1 then 0 else p.val; rw [if_neg (by decide)]
    | ⟨1, _⟩ => by show n.val = if (32 : Nat) = 1 then 0 else n.val; rw [if_neg (by decide)]
    | ⟨2, _⟩ => by show 0 = if (1 : Nat) = 1 then 0 else u.val; rw [if_pos rfl])

theorem sqrt_apply {s : Shape} {φ : FTy} (a : FVec Ideal s φ) (i : s.Idx) : sqrt a i = Ideal.sqrt (a i) := rfl

/-- The zero block. -/
theorem pay1_apply (p : Fin 8) (n : Fin 32) (u : Fin 128) :
    k0_pay1 (F := Ideal) (ix3 p n u) = Ideal.ofBits .f32 0x00000000#32 := by
  unfold k0_pay1
  rw [shapeCast_self]
  rfl

/-- The accumulate step. -/
theorem pay2_apply (v3 : Vec Ideal S8x32x128 .f32) (v4 : Vec Ideal S8x128x32x128 .f32) (p : Fin 8) (n : Fin 32) (u : Fin 128) :
    k0_pay2 v3 v4 (ix3 p n u) = v3 (ix3 p n u) + ∑ k : Fin 128, v4 (ix4 p k n u) := by
  unfold k0_pay2
  dsimp only
  rw [shapeCast_self, shapeCast_self, addf_apply, chanSum_apply]

/-- The finalize step: the squash of the scaled running sum. -/
theorem pay3_apply (v14 : Vec Ideal S8x32x128 .f32) (p : Fin 8) (n : Fin 32) (u : Fin 128) :
    k0_pay3 v14 (ix3 p n u)
      = Cert.Squash.squash (fun l => v14 (ix3 p n l) * Ideal.ofBits .f32 0x3B800000#32) u := by
  unfold k0_pay3
  dsimp only
  simp only [mulf_apply, divf_apply, addf_apply, broadcast_apply, column_apply, keepdims_apply, sqrt_apply,
    Ideal.ofBits_def]
  rw [laneSum_apply]
  simp only [mulf_apply, broadcast_apply]
  rfl

/-- A first and a last channel block, then the finalize step. -/
theorem block_apply (x₀ x₁ : Vec Ideal S8x128x32x128 .f32) (p : Fin 8) (n : Fin 32) (u : Fin 128) :
    k0_pay3 (k0_pay2 (k0_pay2 (k0_pay1 (F := Ideal)) x₀) x₁) (ix3 p n u)
      = Cert.Squash.squash (fun l => ((Ideal.ofBits .f32 0x00000000#32 + ∑ k : Fin 128, x₀ (ix4 p k n l))
          + ∑ k : Fin 128, x₁ (ix4 p k n l)) * Ideal.ofBits .f32 0x3B800000#32) u := by
  rw [pay3_apply]
  simp only [pay2_apply, pay1_apply]

end Cert.KernelIdeal.KValue

end
-- ==== Proof.KRun.lean ====
/-
  From blocks to the whole array: what the kernel's result holds after the run, at the exact instance.

  The grid has 16 points; point `t` works on batch block `t / 2` (rows `8·(t/2) … 8·(t/2) + 7`) and channel block `t % 2`
  (channels `128·(t%2) … 128·(t%2) + 127`) of the input read as [64, 256, 32, 128].  Points come in pairs: the even
  point leaves `0 + Σ` of its 128 channels in the scratch, the odd point adds its own 128 channels, scales by `2⁻⁸`,
  applies the squash and writes the output block back.  So the block written by point `t = 2q + 1` is, element by
  element, the squash of the capsule of channel means of rows `8q + p` — the two half sums are the one sum over
  256 channels (Squash.mean_eq).  The eight written blocks tile the [64, 32, 128] result array: row `r` lies in
  the block of point `2·(r / 8) + 1`.  After the region the program only appends a unit axis.
-/
import proofs.«177198_j14199161881177_1_alg».proof.Proof.Gen.KernelIdeal.Frame
import proofs.«177198_j14199161881177_1_alg».proof.Proof.KPieces
import proofs.«177198_j14199161881177_1_alg».proof.Proof.KValue
import proofs.«177198_j14199161881177_1_alg».proof.Proof.Squash
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.Tactic

open Idealize.ShloMosaic.ValueIdx
open Idealize.ShloMosaic.Pipeline (Dat)

namespace Cert.KernelIdeal.KRun

open Cert.KernelIdeal Cert.KernelIdeal.Gen Cert.Squash

variable (m : (ℓ : Loc nD τ sig) → Buf (Elt Ideal) ℓ) (ρ : Dev nD → PrngReg)

/-- After a point with channel-block index 0 the scratch holds `0 +` the channel sum of that point's block. -/
theorem scratch_even (c : Dev nD) (t : Fin cfg0.N) (h0 : t.val % 2 = 0) :
    (outsAt0 m c t.val t.isLt).2 = k0_pay2 (k0_pay1 (F := Ideal)) (iblk m c 0 t) := by
  have h1 : ¬ t.val % 2 = 1 := by omega
  rw [outsAt0_A m c t h0 h1]
  dsimp only
  exact Pieces.scratch_first (F := Ideal) c (grid0.coords t) (ms0_0 t) (hs0_0 t) (ms0_1 t) (hs0_1 t) scM0_0 (Memref.isWhole_whole _)
    ((hcond0_0 t).mpr h0) (fun h => h1 ((hcond0_1 t).mp h)) (iblk m c 0 t)

/-- After a point with channel-block index 1 the output block holds the squash payload of both blocks' channel sums. -/
theorem out_odd (c : Dev nD) (t : Fin cfg0.N) (h1 : t.val % 2 = 1) :
    (outsAt0 m c t.val t.isLt).1
      = k0_pay3 (k0_pay2 (k0_pay2 (k0_pay1 (F := Ideal)) (iblk m c 0 ⟨t.val - 1, Nat.lt_of_le_of_lt (Nat.sub_le _ _) t.isLt⟩))
          (iblk m c 0 t)) := by
  have h0 : ¬ t.val % 2 = 0 := by omega
  rw [outsAt0_B m c t h0 h1]
  dsimp only
  refine (Pieces.out_last (F := Ideal) c (grid0.coords t) (ms0_0 t) (hs0_0 t) (ms0_1 t) (hs0_1 t) scM0_0 (Memref.isWhole_whole _)
    (fun h => h0 ((hcond0_0 t).mp h)) ((hcond0_1 t).mpr h1) (iblk m c 0 t)
    (outsAt0 m c (t.val - 1) (Nat.lt_of_le_of_lt (Nat.sub_le _ _) t.isLt)).2).trans ?_
  have he := scratch_even m c ⟨t.val - 1, Nat.lt_of_le_of_lt (Nat.sub_le _ _) t.isLt⟩ (by show (t.val - 1) % 2 = 0; omega)
  exact congrArg (fun z => k0_pay3 (k0_pay2 z (iblk m c 0 t))) he

/-- What the region finds in the re-read array: the input array, element for element at the same row-major position. -/
theorem entry_v0 (c : Dev nD) :
    (V m c main_v0 : S64x256x32x128.Idx → EReal)
      = shapeCast S64x256x32x128 (m ((c : Thread nD τ).loc main_arg0)) shapeCasts_S64x32x256x128_S64x256x32x128 := by
  show StableHlo.after hostOps0 (fun b => m (c, b)) (Proc.devRef .tc main_v0) = _
  after_results
  rfl

theorem entry_apply (c : Dev nD) (b : Fin 64) (k : Fin 256) (n : Fin 32) (l : Fin 128) :
    (V m c main_v0 : S64x256x32x128.Idx → EReal) (ix4 b k n l) = m ((c : Thread nD τ).loc main_arg0) (chan b k n l) := by
  rw [entry_v0]
  exact shapeCast_apply _ _ (ix4 b k n l) (chan b k n l) (by rw [chan_rowMajor, Shape.rowMajor_val_four]; rfl)

/-- The printed index maps over the grid: point `t` is batch block `t / 2`, channel block `t % 2`. -/
theorem idx_facts : ∀ t : Fin cfg0.N, win0_0.index t (0 : Fin 4) = t.val / 2 ∧ win0_0.index t (1 : Fin 4) = t.val % 2
    ∧ win0_0.index t (2 : Fin 4) = 0 ∧ win0_0.index t (3 : Fin 4) = 0
    ∧ win0_1.index t (0 : Fin 3) = t.val / 2 ∧ win0_1.index t (1 : Fin 3) = 0 ∧ win0_1.index t (2 : Fin 3) = 0 :=
  (by decide +kernel : ∀ t : Fin grid0.N, _)

/-- The input block at a point of channel block 0, batch block `q`: rows `8q + p`, channels `k`. -/
theorem iblk_first (c : Dev nD) (t : Fin cfg0.N) (q : Fin 8) (hq : t.val / 2 = q.val) (h0 : t.val % 2 = 0)
    (p : Fin 8) (k : Fin 128) (n : Fin 32) (l : Fin 128) :
    iblk m c 0 t (ix4 p k n l)
      = m ((c : Thread nD τ).loc main_arg0) (chan ⟨q.val * 8 + p.val, by omega⟩ ⟨k.val, by omega⟩ n l) := by
  obtain ⟨e0, e1, e2, e3, -, -, -⟩ := idx_facts t
  refine Eq.trans ?_ (entry_apply m c ⟨q.val * 8 + p.val, by omega⟩ ⟨k.val, by omega⟩ n l)
  unfold iblk
  rw [View.read_apply]
  show V m c main_v0 (((cfg0.win 0).blk t).view.emb (ix4 p k n l)) = _
  refine congrArg (V m c main_v0) (funext fun a => Fin.ext ?_)
  match a with
  | ⟨0, _⟩ => show win0_0.index t (0 : Fin 4) * 8 + 1 * p.val = q.val * 8 + p.val; rw [e0, hq]; omega
  | ⟨1, _⟩ => show win0_0.index t (1 : Fin 4) * 128 + 1 * k.val = k.val; rw [e1, h0]; omega
  | ⟨2, _⟩ => show win0_0.index t (2 : Fin 4) * 32 + 1 * n.val = n.val; rw [e2]; omega
  | ⟨3, _⟩ => show win0_0.index t (3 : Fin 4) * 128 + 1 * l.val = l.val; rw [e3]; omega

/-- The input block at a point of channel block 1, batch block `q`: rows `8q + p`, channels `128 + k`. -/
theorem iblk_last (c : Dev nD) (t : Fin cfg0.N) (q : Fin 8) (hq : t.val / 2 = q.val) (h1 : t.val % 2 = 1)
    (p : Fin 8) (k : Fin 128) (n : Fin 32) (l : Fin 128) :
    iblk m c 0 t (ix4 p k n l)
      = m ((c : Thread nD τ).loc main_arg0) (chan ⟨q.val * 8 + p.val, by omega⟩ ⟨128 + k.val, by omega⟩ n l) := by
  obtain ⟨e0, e1, e2, e3, -, -, -⟩ := idx_facts t
  refine Eq.trans ?_ (entry_apply m c ⟨q.val * 8 + p.val, by omega⟩ ⟨128 + k.val, by omega⟩ n l)
  unfold iblk
  rw [View.read_apply]
  show V m c main_v0 (((cfg0.win 0).blk t).view.emb (ix4 p k n l)) = _
  refine congrArg (V m c main_v0) (funext fun a => Fin.ext ?_)
  match a with
  | ⟨0, _⟩ => show win0_0.index t (0 : Fin 4) * 8 + 1 * p.val = q.val * 8 + p.val; rw [e0, hq]; omega
  | ⟨1, _⟩ => show win0_0.index t (1 : Fin 4) * 128 + 1 * k.val = 128 + k.val; rw [e1, h1]; omega
  | ⟨2, _⟩ => show win0_0.index t (2 : Fin 4) * 32 + 1 * n.val = n.val; rw [e2]; omega
  | ⟨3, _⟩ => show win0_0.index t (3 : Fin 4) * 128 + 1 * l.val = l.val; rw [e3]; omega

/-- The kernel region's result array, of shape [64, 32, 128]: the result without its trailing unit axis. -/
def mid (x : S64x32x256x128.Idx → EReal) : S64x32x128.Idx → EReal :=
  fun i => result x (ix4 (i 0 : Fin 64) (i 1 : Fin 32) (i 2 : Fin 128) (0 : Fin 1))

/-- What a point of channel block 1, batch block `q`, leaves in the output block, element by element. -/
theorem out_value (c : Dev nD) (t : Fin cfg0.N) (h1 : t.val % 2 = 1) (q : Fin 8) (hq : t.val / 2 = q.val) (y : S8x32x128.Idx) :
    (outsAt0 m c t.val t.isLt).1 y
      = result (m ((c : Thread nD τ).loc main_arg0))
          (ix4 (⟨q.val * 8 + (y 0).val, by have h : (y 0).val < 8 := (y 0).isLt; omega⟩ : Fin 64) (y 1 : Fin 32) (y 2 : Fin 128) (0 : Fin 1)) := by
  obtain ⟨p, n, u, rfl⟩ : ∃ (p : Fin 8) (n : Fin 32) (u : Fin 128), y = ix3 p n u := ⟨y 0, y 1, y 2, eq_ix3 y⟩
  rw [out_odd m c t h1]
  refine (KValue.block_apply _ _ p n u).trans ?_
  rw [result_apply]
  refine congrArg (fun s => squash s u) (funext fun l => ?_)
  have e0 : ∀ k : Fin 128, iblk m c 0 ⟨t.val - 1, Nat.lt_of_le_of_lt (Nat.sub_le _ _) t.isLt⟩ (ix4 p k n l)
      = m ((c : Thread nD τ).loc main_arg0) (chan ⟨q.val * 8 + p.val, by omega⟩ ⟨k.val, by omega⟩ n l) := fun k =>
    iblk_first m c ⟨t.val - 1, Nat.lt_of_le_of_lt (Nat.sub_le _ _) t.isLt⟩ q (by show (t.val - 1) / 2 = q.val; omega)
      (by show (t.val - 1) % 2 = 0; omega) p k n l
  have e1 : ∀ k : Fin 128, iblk m c 0 t (ix4 p k n l)
      = m ((c : Thread nD τ).loc main_arg0) (chan ⟨q.val * 8 + p.val, by omega⟩ ⟨128 + k.val, by omega⟩ n l) := fun k =>
    iblk_last m c t q hq h1 p k n l
  simp only [e0, e1]
  exact mean_eq (fun k => m ((c : Thread nD τ).loc main_arg0) (chan ⟨q.val * 8 + p.val, by omega⟩ k n l))

/-- WHAT A WRITING POINT WRITES BACK is its block of `mid`. -/
theorem flushed_eq (c : Dev nD) (t : Fin cfg0.N) (hf : (cfg0.win 1).flush t = true) :
    (dats m 0 c).flushed 1 t = ((cfg0.win 1).blk t).view.read (Elt Ideal) (mid (m ((c : Thread nD τ).loc main_arg0))) := by
  have h1 : t.val % 2 = 1 := (flush0_1 t).mp hf
  have hN : t.val < 16 := lt_of_lt_of_eq t.isLt (show cfg0.N = 16 from N_0)
  obtain ⟨-, -, -, -, f0, f1, f2⟩ := idx_facts t
  show (cfg0.win 1).cut (grid0.coords t) ((dats m 0 c).after 1 t) = _
  rw [after0_1]
  funext y
  refine (out_value m c t h1 ⟨t.val / 2, by omega⟩ rfl y).trans ?_
  show _ = mid (m ((c : Thread nD τ).loc main_arg0)) (((cfg0.win 1).blk t).view.emb y)
  unfold mid
  refine congrArg (result (m ((c : Thread nD τ).loc main_arg0))) (funext fun a => Fin.ext ?_)
  match a with
  | ⟨0, _⟩ => show t.val / 2 * 8 + (y 0).val = win0_1.index t (0 : Fin 3) * 8 + 1 * (y 0).val; rw [f0]; omega
  | ⟨1, _⟩ => show (y 1).val = win0_1.index t (1 : Fin 3) * 32 + 1 * (y 1).val; rw [f1]; omega
  | ⟨2, _⟩ => show (y 2).val = win0_1.index t (2 : Fin 3) * 128 + 1 * (y 2).val; rw [f2]; omega
  | ⟨3, _⟩ => rfl

/-- Every row of the result array lies in the block of the writing point of its batch block, so the array ends at `mid`. -/
theorem final (c : Dev nD) : (dats m 0 c).arrAt 1 cfg0.N = mid (m ((c : Thread nD τ).loc main_arg0)) :=
  (dats m 0 c).arrAt_eq_of_cover 1 (mid (m ((c : Thread nD τ).loc main_arg0))) (fun t hf => flushed_eq m c t hf) (fun i => by
    have hi0 : (i 0).val < 64 := (i 0).isLt
    have hi1 : (i 1).val < 32 := (i 1).isLt
    have hi2 : (i 2).val < 128 := (i 2).isLt
    have hN : cfg0.N = 16 := N_0
    obtain ⟨t, ht⟩ : ∃ t : Fin cfg0.N, t.val = 2 * ((i 0).val / 8) + 1 := ⟨⟨2 * ((i 0).val / 8) + 1, by omega⟩, rfl⟩
    obtain ⟨-, -, -, -, f0, f1, f2⟩ := idx_facts t
    refine ⟨t, (flush0_1 t).mpr (by omega), ?_⟩
    show i ∈ ((View.whole main_v1).slice (win0_1.rect t)).set
    rw [View.set_slice_whole, Rect.mem_set_unit]
    intro a
    match a with
    | ⟨0, _⟩ => show win0_1.index t (0 : Fin 3) * 8 ≤ (i 0).val ∧ (i 0).val < win0_1.index t (0 : Fin 3) * 8 + 8; rw [f0]; omega
    | ⟨1, _⟩ => show win0_1.index t (1 : Fin 3) * 32 ≤ (i 1).val ∧ (i 1).val < win0_1.index t (1 : Fin 3) * 32 + 32; rw [f1]; omega
    | ⟨2, _⟩ => show win0_1.index t (2 : Fin 3) * 128 ≤ (i 2).val ∧ (i 2).val < win0_1.index t (2 : Fin 3) * 128 + 128; rw [f2]; omega)

theorem tail_eq (c : Dev nD) :
    Pipeline.afterTail₀ cfgs (dats m) 0 (V0 m) [hostOps1] c main_v2 = result (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = mid (m ((c : Thread nD τ).loc main_arg0)) :=
    (Pipeline.withArrays_arr spec0 launch0.win.arr_inj c _ _ 1).trans (final m c)
  refine Eq.trans (congrArg (broadcastInDim S64x32x128x1 ![0, 1, 2] bcast_S64x32x128_S64x32x128x1_0_1_2) hw) ?_
  funext i
  obtain ⟨b, n, u, o, rfl⟩ : ∃ (b : Fin 64) (n : Fin 32) (u : Fin 128) (o : Fin 1), i = ix4 b n u o :=
    ⟨i 0, i 1, i 2, i 3, eq_ix4 i⟩
  refine (broadcastInDim_apply _ bcast_S64x32x128_S64x32x128x1_0_1_2 (mid (m ((c : Thread nD τ).loc main_arg0)))
    (ix4 b n u o) (ix3 b n u) (fun a => match a with
    | ⟨0, _⟩ => by show b.val = if (64 : Nat) = 1 then 0 else b.val; rw [if_neg (by decide)]
    | ⟨1, _⟩ => by show n.val = if (32 : Nat) = 1 then 0 else n.val; rw [if_neg (by decide)]
    | ⟨2, _⟩ => by show u.val = if (128 : Nat) = 1 then 0 else u.val; rw [if_neg (by decide)])).trans ?_
  obtain rfl : o = 0 := Subsingleton.elim _ _
  rfl

/-- THE KERNEL'S RUN, READ: every weakly fair execution ends with the result at `result` of the input, the input unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans (tail_eq m c),
     ((h c).2 main_arg0 (Pipeline.mem_restRefs_of main_arg0 (by decide) (by decide))).trans (W_main_arg0 m (dats m) c)⟩)
    (run_main m ρ)

end Cert.KernelIdeal.KRun
end
-- ==== Proof.RefValue.lean ====
/-
  The reference, read one stage at a time at the exact instance: its result is `Squash.result` of its argument.

  The routing logits are all zero, so the softmax over the 256 channels is the constant 1/256: the running maximum
  of zeros from -∞ is 0, every shifted logit is 0 - 0, its exponential is 1, the 256 of them sum to 256, and
  1 / 256 is the weight.  The weighted sum over the channels of the input, read as [64, 256, 32, 128, 1] at the same
  row-major positions, is the mean capsule; the squash follows, stage for stage as `Squash.squash` spells it (the sums
  start from the word +0.0, which is 0).  Axes of extent 1 come and go between the stages: the index equations
  below say where each stage reads.
-/
import proofs.«177198_j14199161881177_1_alg».proof.Proof.Gen.ReferenceIdeal.Read
import proofs.«177198_j14199161881177_1_alg».proof.Proof.Squash
import Idealize.ShloMosaic.Lib.ValueIdx
import Idealize.ShloMosaic.PureOps.Ideal.Laws

noncomputable section

open Idealize.ShloMosaic Idealize.ShloMosaic.TcCoe Idealize.SL.Sem Idealize.ShloMosaic.Tactic

open Idealize.ShloMosaic.ValueIdx

namespace Cert.ReferenceIdeal.RefValue

open Cert.ReferenceIdeal Cert.ReferenceIdeal.Gen Cert.ReferenceIdeal.Read Cert.Squash

/-- The running maximum of 256 zeros, started from -∞, is 0. -/
theorem max_zeros (j : S1x32x1.Idx) : val_main_v2 (F := Ideal) j = 0 := by
  have hR : S1x256x32x1.Reduces [1] S1x32x1 := by decide
  unfold val_main_v2
  refine (Host.reduce_eq_fold_single (FloatOps.maximumf (F := Ideal) (φ := .f32))
    (val_main_v1 (F := Ideal) : S1x256x32x1.Idx → Ideal .f32) (val_main_cst_0 (F := Ideal) : S_.Idx → Ideal .f32)
    reducesTo_S1x256x32x1_S1x32x1_d1 hR h_S_ j).trans ?_
  have hc : (val_main_v1 (F := Ideal)) ∘ hR.lift j = fun _ => (0 : EReal) := funext fun k => by
    show val_main_v1 (F := Ideal) (hR.lift j k) = 0
    rw [val_main_v1_apply, val_main_cst_apply, Ideal.ofBits_def, ofBits_zero]
  rw [hc, val_main_cst_0_apply, Ideal.ofBits_def, ofBits_neg_inf]
  show Finset.fold max (⊥ : EReal) (fun _ => (0 : EReal)) Finset.univ = 0
  exact le_antisymm ((Finset.fold_max_le (0 : EReal)).mpr ⟨bot_le, fun _ _ => le_rfl⟩)
    ((Finset.le_fold_max (0 : EReal)).mpr (Or.inr ⟨⟨0, by decide⟩, Finset.mem_univ _, le_rfl⟩))

/-- Every shifted logit is `0 - 0`, whose exponential is 1. -/
theorem exp_shifted (i : S1x256x32x1.Idx) : val_main_v8 (F := Ideal) i = 1 := by
  rw [val_main_v8_apply, val_main_v7_apply, val_main_v1_apply, val_main_cst_apply, val_main_v6_apply, val_main_v5_apply,
    val_main_v4_apply, val_main_v3_apply, val_main_cst_1_apply, max_zeros]
  simp only [Ideal.hostUnary_exp_def, Ideal.subf_def, Ideal.maximumf_def, Ideal.ofBits_def, ofBits_zero, ofBits_neg_inf]
  rw [max_eq_right bot_le, sub_zero, ← EReal.coe_zero, Ideal.exp_coe, Real.exp_zero, EReal.coe_one]

/-- Their sum over the 256 channels is 256. -/
theorem exp_total (j : S1x32x1.Idx) : val_main_v9 (F := Ideal) j = ((256 : ℝ) : EReal) := by
  rw [val_main_v9_apply, val_main_cst_2_apply, Ideal.ofBits_def, ofBits_zero, zero_add]
  simp only [exp_shifted]
  rw [Finset.sum_const, Finset.card_univ, Fintype.card_fin, ← EReal.coe_one, ← EReal.coe_nsmul]
  norm_num

/-- So every softmax weight is 1/256. -/
theorem weight (i : S1x256x32x1.Idx) : val_main_v12 (F := Ideal) i = w256 := by
  rw [val_main_v12_apply, exp_shifted, val_main_v11_apply, val_main_v10_apply, exp_total, Ideal.hostDivf_def,
    Ideal.div_coe (by norm_num : (256 : ℝ) ≠ 0), one_mul]

/-! ## The composed indices of the stages, at explicit coordinates -/

theorem idx0_eq (b : Fin 64) (k : Fin 256) (n : Fin 32) (l : Fin 128) (o : Fin 1) :
    idx_main_v0 (ix5 b k n l o) = chan b k n l := by
  have ho : o.val = 0 := by omega
  have hb := b.isLt; have hk := k.isLt; have hn := n.isLt; have hl := l.isLt
  funext a
  apply Fin.ext
  match a with
  | ⟨0, _⟩ => show (pos b k n l * 1 + o.val) / 1048576 = pos b k n l / 1048576; rw [ho]; omega
  | ⟨1, _⟩ => show (pos b k n l * 1 + o.val) / 32768 % 32 = pos b k n l / 32768 % 32; rw [ho]; omega
  | ⟨2, _⟩ => show (pos b k n l * 1 + o.val) / 128 % 256 = pos b k n l / 128 % 256; rw [ho]; omega
  | ⟨3, _⟩ => show (pos b k n l * 1 + o.val) % 128 = pos b k n l % 128; rw [ho]; omega

theorem idx16_eq (b : Fin 64) (n : Fin 32) (l : Fin 128) (o : Fin 1) (k : Fin 256) :
    idx_main_v16 (ix4 b n l o) k = ix5 b k n l o :=
  funext fun a => by match a with | ⟨0, _⟩ => rfl | ⟨1, _⟩ => rfl | ⟨2, _⟩ => rfl | ⟨3, _⟩ => rfl | ⟨4, _⟩ => rfl

theorem idx17_eq (b : Fin 64) (o₁ : Fin 1) (n : Fin 32) (l : Fin 128) (o₂ : Fin 1) :
    idx_main_v17 (ix5 b o₁ n l o₂) = ix4 b n l (0 : Fin 1) :=
  funext fun a => by match a with | ⟨0, _⟩ => rfl | ⟨1, _⟩ => rfl | ⟨2, _⟩ => rfl | ⟨3, _⟩ => rfl

theorem idx19_eq (b : Fin 64) (o₁ : Fin 1) (n : Fin 32) (o₂ : Fin 1) (l : Fin 128) :
    idx_main_v19 (ix4 b o₁ n o₂) l = ix5 b o₁ n l o₂ :=
  funext fun a => by match a with | ⟨0, _⟩ => rfl | ⟨1, _⟩ => rfl | ⟨2, _⟩ => rfl | ⟨3, _⟩ => rfl | ⟨4, _⟩ => rfl

theorem idx20_eq (b : Fin 64) (o₁ : Fin 1) (n : Fin 32) (o₂ o₃ : Fin 1) :
    idx_main_v20 (ix5 b o₁ n o₂ o₃) = ix4 b (0 : Fin 1) n (0 : Fin 1) :=
  funext fun a => by match a with | ⟨0, _⟩ => rfl | ⟨1, _⟩ => rfl | ⟨2, _⟩ => rfl | ⟨3, _⟩ => rfl

theorem idx27_eq (b : Fin 64) (o₁ : Fin 1) (n : Fin 32) (u : Fin 128) (o₂ : Fin 1) :
    idx_main_v27 (ix5 b o₁ n u o₂) = ix5 b (0 : Fin 1) n (0 : Fin 1) (0 : Fin 1) :=
  funext fun a => by match a with | ⟨0, _⟩ => rfl | ⟨1, _⟩ => rfl | ⟨2, _⟩ => rfl | ⟨3, _⟩ => rfl | ⟨4, _⟩ => rfl

theorem idx29_eq (b : Fin 64) (o₁ : Fin 1) (n : Fin 32) (u : Fin 128) (o₂ : Fin 1) :
    idx_main_v29 (ix5 b o₁ n u o₂) = ix5 b (0 : Fin 1) n (0 : Fin 1) (0 : Fin 1) :=
  funext fun a => by match a with | ⟨0, _⟩ => rfl | ⟨1, _⟩ => rfl | ⟨2, _⟩ => rfl | ⟨3, _⟩ => rfl | ⟨4, _⟩ => rfl

theorem idx31_eq (b : Fin 64) (n : Fin 32) (u : Fin 128) (o : Fin 1) :
    idx_main_v31 (ix4 b n u o) = ix5 b (0 : Fin 1) n u (0 : Fin 1) := by
  have ho : o.val = 0 := by omega
  have hb := b.isLt; have hn := n.isLt; have hu := u.isLt
  funext a
  apply Fin.ext
  match a with
  | ⟨0, _⟩ => show (((b.val * 32 + n.val) * 128 + u.val) * 1 + o.val) / 4096 = b.val; rw [ho]; omega
  | ⟨1, _⟩ => rfl
  | ⟨2, _⟩ => show (((b.val * 32 + n.val) * 128 + u.val) * 1 + o.val) / 128 % 32 = n.val; rw [ho]; omega
  | ⟨3, _⟩ => show (((b.val * 32 + n.val) * 128 + u.val) * 1 + o.val) / 1 % 128 = u.val; rw [ho]; omega
  | ⟨4, _⟩ => rfl

/-! ## The stages at explicit coordinates -/

/-- The weighted channel sum: lane `l` of capsule (b, n) of the mean. -/
theorem mean_apply (x0 : (⟨S64x32x256x128, .f32⟩ : BufTy).Contents (Elt Ideal)) (b : Fin 64) (n : Fin 32) (l : Fin 128) (o : Fin 1) :
    val_main_v16 (F := Ideal) x0 (ix4 b n l o) = ∑ k : Fin 256, w256 * x0 (chan b k n l) := by
  rw [val_main_v16_apply, val_main_cst_3_apply, Ideal.ofBits_def, ofBits_zero, zero_add]
  refine Finset.sum_congr rfl fun k _ => ?_
  rw [idx16_eq, val_main_v15_apply, val_main_v14_apply, val_main_v13_apply, weight, val_main_v0_apply, idx0_eq, Ideal.mulf_def]

/-- The squared norm of capsule (b, n) of the mean. -/
theorem normSq_apply (x0 : (⟨S64x32x256x128, .f32⟩ : BufTy).Contents (Elt Ideal)) (b : Fin 64) (o₁ : Fin 1) (n : Fin 32) (o₂ o₃ : Fin 1) :
    val_main_v20 (F := Ideal) x0 (ix5 b o₁ n o₂ o₃)
      = ∑ l : Fin 128, (∑ k : Fin 256, w256 * x0 (chan b k n l)) * (∑ k : Fin 256, w256 * x0 (chan b k n l)) := by
  rw [val_main_v20_apply, idx20_eq, val_main_v19_apply, val_main_cst_4_apply, Ideal.ofBits_def, ofBits_zero, zero_add]
  refine Finset.sum_congr rfl fun l _ => ?_
  rw [idx19_eq, val_main_v18_apply, val_main_v17_apply, idx17_eq, mean_apply, Ideal.mulf_def]

/-- THE REFERENCE'S RESULT is `result` of its argument. -/
theorem ref_eq (x0 : (⟨S64x32x256x128, .f32⟩ : BufTy).Contents (Elt Ideal)) :
    val_main_v31 (F := Ideal) x0 = result x0 := by
  funext i
  obtain ⟨b, n, u, o, rfl⟩ : ∃ (b : Fin 64) (n : Fin 32) (u : Fin 128) (o : Fin 1), i = ix4 b n u o :=
    ⟨i 0, i 1, i 2, i 3, eq_ix4 i⟩
  rw [result_apply, val_main_v31_apply, idx31_eq, val_main_v30_apply, val_main_v29_apply, idx29_eq, val_main_v24_apply,
    val_main_v23_apply, val_main_v22_apply, val_main_cst_5_apply, normSq_apply, val_main_v28_apply, val_main_v17_apply,
    idx17_eq, mean_apply, val_main_v27_apply, idx27_eq, val_main_v26_apply, val_main_v21_apply, normSq_apply,
    val_main_v25_apply, val_main_cst_6_apply]
  simp only [Ideal.mulf_def, Ideal.hostDivf_def, Ideal.addf_def, Ideal.hostUnary_sqrt_def, Ideal.ofBits_def]
  rfl

end Cert.ReferenceIdeal.RefValue
end
-- ==== Proof.lean ====
/-
  A capsule layer with zero routing logits and one routing iteration: the squash of the channel mean.

  Input x of shape [64, 32, 256, 128], re-read without moving anything as [64, 256, 32, 128] = (batch b, channel k,
  capsule n, lane l).  Both programs compute, for every (b, n), the capsule s_l = Σ_k x(b, k, n, l) / 256 and return
  its squash |s|²/(1 + |s|²) · s/(|s| + ε) as an array [64, 32, 128, 1]  (Squash.result).

    * The reference multiplies each channel by the softmax weight — the softmax of 256 zeros, which is 1/256 —
      and sums over the channels (RefValue.ref_eq).
    * The kernel sums the channels in two halves of 128 over a pair of grid points into a scratch block that starts
      at 0, multiplies the total by the word 2⁻⁸ and squashes; eight such output blocks tile the result (KRun.run).

  The two agree on the extended reals because 1/256 is a nonnegative real, which distributes over a sum whatever
  infinities it holds (Squash.mean_eq); the squash is then the same expression on both sides.  The precondition
  (finite inputs) is never opened.  The idealization rewrote nothing, so it is preserved trivially.
-/
import proofs.«177198_j14199161881177_1_alg».proof.Defs
import proofs.«177198_j14199161881177_1_alg».proof.Proof.Gen.Kernel
import proofs.«177198_j14199161881177_1_alg».proof.Proof.Gen.Kernel.Skeleton
import proofs.«177198_j14199161881177_1_alg».proof.Proof.Gen.Kernel.Launch
import proofs.«177198_j14199161881177_1_alg».proof.Proof.Gen.Kernel.Points
import proofs.«177198_j14199161881177_1_alg».proof.Proof.Gen.Kernel.Frame
import proofs.«177198_j14199161881177_1_alg».proof.Proof.Gen.KernelIdeal
import proofs.«177198_j14199161881177_1_alg».proof.Proof.Gen.KernelIdeal.Skeleton
import proofs.«177198_j14199161881177_1_alg».proof.Proof.Gen.KernelIdeal.Launch
import proofs.«177198_j14199161881177_1_alg».proof.Proof.Gen.KernelIdeal.Points
import proofs.«177198_j14199161881177_1_alg».proof.Proof.Gen.KernelIdeal.Frame
import proofs.«177198_j14199161881177_1_alg».proof.Proof.Gen.ReferenceIdeal
import proofs.«177198_j14199161881177_1_alg».proof.Proof.Gen.ReferenceIdeal.Run
import proofs.«177198_j14199161881177_1_alg».proof.Proof.Gen.ReferenceIdeal.Read
import proofs.«177198_j14199161881177_1_alg».proof.Proof.Gen.Pre_finite_inputs
import proofs.«177198_j14199161881177_1_alg».proof.Proof.KRun
import proofs.«177198_j14199161881177_1_alg».proof.Proof.RefValue
import Idealize.ShloMosaic.Adequacy
import Idealize.ShloMosaic.Init

noncomputable section

namespace Cert.Proof

open Idealize.ShloMosaic Idealize.SL.Sem

/-- The word-level kernel runs and leaves its argument as it found it. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its exact reading. -/
theorem preserves : Cert.preserves_Kernel_KernelIdeal := trivial

/-- From memories that agree on the input, the kernel's result array and the reference's both end at
    `Squash.result` of that input. -/
theorem algebraic : Cert.algebraic_KernelIdeal_ReferenceIdeal := by
  intro m ρ m' ρ' _ hagree
  refine ⟨fun c => Cert.Squash.result (m ((c.tc : Thread Cert.KernelIdeal.nD Cert.KernelIdeal.τ).loc Cert.KernelIdeal.main_arg0)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
